-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 87
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x64, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x1, .f32⟩
  | .hbm, ⟨79, _⟩ => ⟨S1700000x64, .f32⟩
  | .hbm, ⟨80, _⟩ => ⟨S1700000x64, .f32⟩
  | .hbm, ⟨81, _⟩ => ⟨S_, .f32⟩
  | .hbm, ⟨82, _⟩ => ⟨S100000x64, .f32⟩
  | .hbm, ⟨83, _⟩ => ⟨S1700000x1, .i32⟩
  | .hbm, ⟨84, _⟩ => ⟨S100000x64, .f32⟩
  | .hbm, ⟨85, _⟩ => ⟨S1x64, .f32⟩
  | .hbm, ⟨86, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x64, .f32⟩
  | 6 => ⟨S64, .f32⟩
  | 7 => ⟨S1x1600000, .i32⟩
  | 8 => ⟨S1600000, .i32⟩
  | 9 => ⟨S1x1600000, .i32⟩
  | 10 => ⟨S1600000, .i32⟩
  | 11 => ⟨S100000, .i32⟩
  | 12 => ⟨S1700000, .i32⟩
  | 13 => ⟨S1700000, .i32⟩
  | 14 => ⟨S_, .f32⟩
  | 15 => ⟨S100000, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S100000x128, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S1x1600000, .i32⟩
  | 73 => ⟨S1600000, .i32⟩
  | 74 => ⟨S1x1600000, .i32⟩
  | 75 => ⟨S1600000, .i32⟩
  | 76 => ⟨S100000, .i32⟩
  | 77 => ⟨S1700000, .i32⟩
  | 78 => ⟨S1700000, .i32⟩
  | 79 => ⟨S_, .f32⟩
  | 80 => ⟨S100000, .f32⟩
  | 81 => ⟨S1700000, .f32⟩
  | 82 => ⟨S_, .f32⟩
  | 83 => ⟨S100000, .f32⟩
  | 84 => ⟨S1700000x1, .i32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000, .f32⟩
  | 103 => ⟨S1700000, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000, .f32⟩
  | 113 => ⟨S1700000, .f32⟩
  | 114 => ⟨S100000x64, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000x64, .f32⟩
  | 124 => ⟨S1700000x1, .f32⟩
  | 125 => ⟨S1700000x64, .f32⟩
  | 126 => ⟨S1700000x64, .f32⟩
  | 127 => ⟨S_, .f32⟩
  | _ => ⟨S100000x128, .f32⟩

abbrev hbmTy0_1 (i : Nat) : BufTy := match i % 128 with
  | 0 => ⟨S100000x64, .f32⟩
  | 1 => ⟨S1700000x1, .i32⟩
  | 2 => ⟨S100000x64, .f32⟩
  | 3 => ⟨S1x64, .f32⟩
  | 4 => ⟨S100000x64, .f32⟩
  | 5 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_v58 : Ref sig .tc := ⟨.hbm, 81, rfl⟩
abbrev main_cst_10 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v65 : Ref sig .tc := ⟨.hbm, 93, rfl⟩
abbrev main_c_13 : Ref sig .tc := ⟨.hbm, 94, rfl⟩
abbrev main_v66 : Ref sig .tc := ⟨.hbm, 95, rfl⟩
abbrev main_v67 : Ref sig .tc := ⟨.hbm, 96, rfl⟩
abbrev main_c_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_15 : Ref sig .tc := ⟨.hbm, 104, rfl⟩
abbrev main_v74 : Ref sig .tc := ⟨.hbm, 105, rfl⟩
abbrev main_v75 : Ref sig .tc := ⟨.hbm, 106, rfl⟩
abbrev main_c_16 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_17 : Ref sig .tc := ⟨.hbm, 115, rfl⟩
abbrev main_v83 : Ref sig .tc := ⟨.hbm, 116, rfl⟩
abbrev main_v84 : Ref sig .tc := ⟨.hbm, 117, rfl⟩
abbrev main_c_18 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_19 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibHostDot.lean ====
/-
  A host matrix product and a column broadcast read at an entry, at the ideal values.

  The host's `dot_general` of an M×K by a K×N matrix (contract the left operand's columns against the right operand's
  rows, no batch axis) is, at the entry (a, b), the sum over the contracted coordinate c of `A (a, c) · B (c, b)`: the
  same sum a kernel's plain product into a zero accumulator has. A column [a, 1] broadcast along its unit axis to
  [a, b] repeats the row's one entry.
-/
import Idealize.ShloMosaic.Lib.ValueIdx
import Idealize.ShloMosaic.Lib.Pipeline.Value
import Idealize.ShloMosaic.PureOps.Ideal.Laws

noncomputable section

namespace Cert.HostDot

open Idealize.ShloMosaic Idealize.ShloMosaic.ValueIdx

/-- The host's plain product of an M×K by a K×N matrix, read at an entry, is the sum over the contracted coordinate of
    the products of the entries. At the ideal values. -/
theorem dotGeneral_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    Host.dotGeneral (DotDims.plain M K N) prec A B (ix2 a b) = ∑ c : Fin K, A (ix2 a c) * B (ix2 c b) := by
  simp only [Host.dotGeneral]
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A column [a, 1] broadcast along its unit axis to [a, b]: entry (p, q) is the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.HostDot

end
-- ==== Proof.LibDenseBias.lean ====
/-
  A dense layer's two steps read entry by entry on the extended reals, as a kernel spells them on a block of rows and as
  the host spells them on the whole array; any extents.

  The product.  A kernel multiplies a block of rows of the left matrix by the whole right matrix, both narrowed to bf16
  first (which changes nothing on the extended reals), into a zero accumulator; the host multiplies the whole matrices.
  Either way the entry (p, q) is the sum over k of A (p, k) · B (k, q) (dense_block_entry, dense_host_entry): an entry of the
  product reads one row of the left factor, so a block of rows of the product is the product of that block of rows.

  The bias step.  A kernel adds a one-row matrix [1, b], repeated down the rows of its block (row_down_entry), and may take
  the maximum with zero; the host adds the row repeated down all rows by broadcast_in_dim (row_down_host_entry) and takes
  the same maximum against the zero matrix.  Entry (p, q) is x (p, q) + row (0, q), or its maximum with 0
  (bias_block_entry, bias_relu_block_entry, bias_host_entry, bias_relu_host_entry).  A bias vector [b] laid as the row
  [1, b] by a reshape or by a broadcast_in_dim along the last axis is the same row (bias_row_eq).

  It imports this unit's copies of LibPlainDot.lean and LibHostDot.lean.
-/
import Idealize.ShloMosaic.Lib.ValueIdx
import Idealize.ShloMosaic.Lib.ValueLayout
import Idealize.ShloMosaic.Lib.Pipeline.Value
import Idealize.ShloMosaic.PureOps.Ideal.Laws
import proofs.«144157_j74010876444913_1_alg».proof.Proof.LibPlainDot
import proofs.«144157_j74010876444913_1_alg».proof.Proof.LibHostDot

noncomputable section

namespace Cert.Lib.DenseBias

open Idealize.ShloMosaic Idealize.ShloMosaic.ValueIdx

variable {M K N : ℕ}

/-- The kernel's product of a block of rows, both factors narrowed to bf16, into the zero accumulator: entry (p, q) is
    the sum over k of x0 (p, k) · x1 (k, q). -/
theorem dense_block_entry (h : FTy.bits .bf16 < FTy.bits .f32)
    (x0 : FVec Ideal ⟨2, ![M, K]⟩ .f32) (x1 : FVec Ideal ⟨2, ![K, N]⟩ .f32) (p : Fin M) (q : Fin N) :
    matmul (DotDims.plain M K N) none (truncf .bf16 x0 h) (truncf .bf16 x1 h)
        (constant (F := Ideal) ⟨2, ![M, N]⟩ .f32 0x00000000#32) (ix2 p q)
      = ∑ k : Fin K, x0 (ix2 p k) * x1 (ix2 k q) :=
  (Cert.PlainDot.matmul_zero_plain_apply none (truncf .bf16 x0 h) (truncf .bf16 x1 h) p q).trans
    (Finset.sum_congr rfl fun _ _ => rfl)

/-- The host's product of the whole matrices: entry (p, q) is the sum over k of A (p, k) · B (k, q). -/
theorem dense_host_entry (A : FVec Ideal ⟨2, ![M, K]⟩ .f32) (B : FVec Ideal ⟨2, ![K, N]⟩ .f32) (p : Fin M) (q : Fin N) :
    Host.dotGeneral (F := Ideal) (DotDims.plain M K N) none A B (ix2 p q) = ∑ k : Fin K, A (ix2 p k) * B (ix2 k q) :=
  Cert.HostDot.dotGeneral_plain_apply none A B p q

variable {a b : ℕ}

/-- A one-row matrix [1, b] repeated down a rows (the kernel's broadcast of its bias row): entry (p, q) is the row's
    entry q. -/
theorem row_down_entry {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The same repetition as the host spells it (broadcast_in_dim of [1, b] to [a, b] along both axes). -/
theorem row_down_host_entry {α : Type} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 (0 : Fin 1) q) := by
  refine broadcastInDim_apply _ h v (ix2 p q) (ix2 (0 : Fin 1) q) fun ax => ?_
  match ax with
  | ⟨0, _⟩ => rfl
  | ⟨1, _⟩ =>
    show q.val = if b = 1 then 0 else q.val
    split
    · have := q.isLt; omega
    · rfl

/-- A bias vector [b] laid as a one-row matrix [1, b], by a reshape (the kernel's program) or by a broadcast_in_dim
    along the last axis (the reference's): the same row. -/
theorem bias_row_eq {α : Type} (x : (⟨1, ![b]⟩ : Shape).Idx → α)
    (h1 : (⟨1, ![b]⟩ : Shape).ShapeCasts ⟨2, ![1, b]⟩)
    (h2 : (⟨1, ![b]⟩ : Shape).BroadcastsInDim ⟨2, ![1, b]⟩ (![1] : Fin 1 → Fin 2)) :
    shapeCast ⟨2, ![1, b]⟩ x h1 = broadcastInDim ⟨2, ![1, b]⟩ (![1] : Fin 1 → Fin 2) h2 x := by
  funext j
  obtain ⟨u, q, rfl⟩ : ∃ (u : Fin 1) (q : Fin b), j = ix2 u q := ⟨j 0, j 1, eq_ix2 j⟩
  rw [shapeCast_a_1a_apply]
  refine (broadcastInDim_apply _ h2 x (ix2 u q) (ix1 q) fun ax => ?_).symm
  match ax with
  | ⟨0, _⟩ =>
    show q.val = if b = 1 then 0 else q.val
    split
    · have := q.isLt; omega
    · rfl

/-- The kernel's bias step on a block, with the maximum against zero: entry (p, q) is max (x0 (p, q) + x1 (0, q)) 0. -/
theorem bias_relu_block_entry (x0 : FVec Ideal ⟨2, ![a, b]⟩ .f32) (x1 : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    maximumf (addf (shapeCast ⟨2, ![a, b]⟩ x0 h0) (broadcastTo ⟨2, ![a, b]⟩ (shapeCast ⟨2, ![1, b]⟩ x1 h1) hb))
        (broadcast ⟨2, ![a, b]⟩ (Scalar.ofBits (F := Ideal) .f32 0x00000000#32)) (ix2 p q)
      = max (x0 (ix2 p q) + x1 (ix2 (0 : Fin 1) q)) (Ideal.ofBits .f32 0x00000000#32) := by
  rw [maximumf_apply, addf_apply, shapeCast_self, shapeCast_self, row_down_entry]
  rfl

/-- The kernel's bias step on a block, second layer (no maximum): entry (p, q) is x0 (p, q) + x1 (0, q). -/
theorem bias_block_entry (x0 : FVec Ideal ⟨2, ![a, b]⟩ .f32) (x1 : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    addf (shapeCast ⟨2, ![a, b]⟩ x0 h0) (broadcastTo ⟨2, ![a, b]⟩ (shapeCast ⟨2, ![1, b]⟩ x1 h1) hb) (ix2 p q)
      = x0 (ix2 p q) + x1 (ix2 (0 : Fin 1) q) := by
  rw [addf_apply, shapeCast_self, shapeCast_self, row_down_entry]

/-- The reference's bias step with the maximum against the zero matrix: entry (p, q) is max (X (p, q) + R (0, q)) 0. -/
theorem bias_relu_host_entry (X : FVec Ideal ⟨2, ![a, b]⟩ .f32) (R : FVec Ideal ⟨2, ![1, b]⟩ .f32)
    (hR : (⟨2, ![1, b]⟩ : Shape).BroadcastsInDim ⟨2, ![a, b]⟩ (![0, 1] : Fin 2 → Fin 2))
    (hz : (⟨0, ![]⟩ : Shape).BroadcastsInDim ⟨2, ![a, b]⟩ (![] : Fin 0 → Fin 2)) (p : Fin a) (q : Fin b) :
    maximumf (addf X (broadcastInDim ⟨2, ![a, b]⟩ (![0, 1] : Fin 2 → Fin 2) hR R))
        (broadcastInDim ⟨2, ![a, b]⟩ (![] : Fin 0 → Fin 2) hz (constant (F := Ideal) ⟨0, ![]⟩ .f32 0x00000000#32)) (ix2 p q)
      = max (X (ix2 p q) + R (ix2 (0 : Fin 1) q)) (Ideal.ofBits .f32 0x00000000#32) := by
  rw [maximumf_apply, addf_apply, row_down_host_entry]
  rfl

/-- The reference's bias step, second layer: entry (p, q) is X (p, q) + R (0, q). -/
theorem bias_host_entry (X : FVec Ideal ⟨2, ![a, b]⟩ .f32) (R : FVec Ideal ⟨2, ![1, b]⟩ .f32)
    (hR : (⟨2, ![1, b]⟩ : Shape).BroadcastsInDim ⟨2, ![a, b]⟩ (![0, 1] : Fin 2 → Fin 2)) (p : Fin a) (q : Fin b) :
    addf X (broadcastInDim ⟨2, ![a, b]⟩ (![0, 1] : Fin 2 → Fin 2) hR R) (ix2 p q)
      = X (ix2 p q) + R (ix2 (0 : Fin 1) q) := by
  rw [addf_apply, row_down_host_entry]

end Cert.Lib.DenseBias

end
-- ==== Proof.DenseOne.lean ====
/-
  The first layer's dense product, computed by the kernel's first region, as one matrix product.

  The region multiplies ten blocks of 10000 rows of the left matrix, one per grid point, by the whole right matrix, and
  writes each product back as the same block of rows of the result.  Row r of the result lies in block r / 10000 and
  reads only row r of the left matrix, so the ten blocks written back are together the product of the whole matrices:
  entry (r, q) is the sum over k of A (r, k) · B (k, q).
-/
import proofs.«144157_j74010876444913_1_alg».proof.Proof.Gen.KernelIdeal.Frame
import proofs.«144157_j74010876444913_1_alg».proof.Proof.LibDenseBias
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.DenseOne

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of the whole matrices, as the host would form it. -/
abbrev whole (A : FVec Ideal ⟨2, ![100000, 128]⟩ .f32) (B : FVec Ideal ⟨2, ![128, 128]⟩ .f32) :
    FVec Ideal ⟨2, ![100000, 128]⟩ .f32 :=
  Host.dotGeneral (F := Ideal) (DotDims.plain 100000 128 128) none A B

/-- Where the blocks sit: at grid point t the left matrix's and the result's blocks are block t of the rows, the right
    matrix's block is the whole matrix. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's stored value on a block: the plain product of the block by the right matrix into zero. -/
theorem stored_eq (x0 : Vec Ideal S10000x128 .f32) (x1 : Vec Ideal S128x128 .f32) :
    k0_pay1 x0 x1 = matmul (DotDims.plain 10000 128 128) none (truncf .bf16 x0 bitsLt_bf16_f32) (truncf .bf16 x1 bitsLt_bf16_f32)
      (constant (F := Ideal) ⟨2, ![10000, 128]⟩ .f32 0x00000000#32) := by
  unfold k0_pay1
  simp only [shapeCast_self]
  rfl

theorem stored_entry (x0 : Vec Ideal S10000x128 .f32) (x1 : Vec Ideal S128x128 .f32) (p : Fin 10000) (q : Fin 128) :
    k0_pay1 x0 x1 (ix2 p q) = ∑ k : Fin 128, x0 (ix2 p k) * x1 (ix2 k q) :=
  (congrFun (stored_eq x0 x1) (ix2 p q)).trans (Cert.Lib.DenseBias.dense_block_entry bitsLt_bf16_f32 x0 x1 p q)

/-- Row p of the left matrix's block at point t is row 10000 t + p of the matrix. -/
theorem left_block_entry (c : Dev nD) (t : Fin cfg0.N) (p : Fin 10000) (k : Fin 128) (r : Fin 100000)
    (hr : r.val = t.val * 10000 + p.val) :
    (iblk0 V c 0 t : Vec Ideal S10000x128 .f32) (ix2 p k) = (V c main_arg0 : FVec Ideal ⟨2, ![100000, 128]⟩ .f32) (ix2 r k) := by
  obtain ⟨e0, e1, -⟩ := block_index t
  unfold iblk0
  rw [View.read_apply]
  show V c main_arg0 _ = V c main_arg0 _
  refine congrArg (V c main_arg0) ?_
  funext ax; apply Fin.ext
  match ax with
  | ⟨0, _⟩ => show win0_0.index t (0 : Fin 2) * 10000 + 1 * p.val = r.val; rw [e0, hr]; omega
  | ⟨1, _⟩ => show win0_0.index t (1 : Fin 2) * 128 + 1 * k.val = k.val; rw [e1]; omega

/-- The right matrix's block at every point is the matrix. -/
theorem right_block_entry (c : Dev nD) (t : Fin cfg0.N) (k : Fin 128) (q : Fin 128) :
    (iblk0 V c 1 t : Vec Ideal S128x128 .f32) (ix2 k q) = (V c main_arg3 : FVec Ideal ⟨2, ![128, 128]⟩ .f32) (ix2 k q) := by
  obtain ⟨-, -, e2, e3, -⟩ := block_index t
  unfold iblk0
  rw [View.read_apply]
  show V c main_arg3 _ = V c main_arg3 _
  refine congrArg (V c main_arg3) ?_
  funext ax; apply Fin.ext
  match ax with
  | ⟨0, _⟩ => show win0_1.index t (0 : Fin 2) * 128 + 1 * k.val = k.val; rw [e2]; omega
  | ⟨1, _⟩ => show win0_1.index t (1 : Fin 2) * 128 + 1 * q.val = q.val; rw [e3]; omega

/-- Entry (p, q) of the result's block at point t is entry (10000 t + p, q) of the result. -/
theorem out_block_index (t : Fin cfg0.N) (p : Fin 10000) (q : Fin 128) (r : Fin 100000)
    (hr : r.val = t.val * 10000 + p.val) :
    ((cfg0.win 2).blk t).view.emb (ix2 p q) = (ix2 r q : (⟨2, ![100000, 128]⟩ : Shape).Idx) := by
  obtain ⟨-, -, -, -, e4, e5⟩ := block_index t
  funext ax; apply Fin.ext
  match ax with
  | ⟨0, _⟩ => show win0_2.index t (0 : Fin 2) * 10000 + 1 * p.val = r.val; rw [e4, hr]; omega
  | ⟨1, _⟩ => show win0_2.index t (1 : Fin 2) * 128 + 1 * q.val = q.val; rw [e5]; omega

/-- What point t writes back is block t of the whole product. -/
theorem flushed_eq (c : Dev nD) (t : Fin cfg0.N) :
    (dat0 V c).flushed 2 t = ((cfg0.win 2).blk t).view.read (Elt Ideal) (whole (V c main_arg0) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  refine funext fun (j : (⟨2, ![10000, 128]⟩ : Shape).Idx) => ?_
  obtain ⟨p, q, rfl⟩ : ∃ (p : Fin 10000) (q : Fin 128), j = ix2 p q := ⟨j 0, j 1, eq_ix2 j⟩
  have ht : t.val < 10 := by have h := t.isLt; have hN : cfg0.N = 10 := N_0; omega
  have hp : p.val < 10000 := p.isLt
  let r : Fin 100000 := ⟨t.val * 10000 + p.val, by omega⟩
  show k0_pay1 (iblk0 V c 0 t) (iblk0 V c 1 t) (ix2 p q)
    = whole (V c main_arg0) (V c main_arg3) (((cfg0.win 2).blk t).view.emb (ix2 p q))
  refine (stored_entry _ _ p q).trans ?_
  refine Eq.trans ?_ (congrArg (whole (V c main_arg0) (V c main_arg3)) (out_block_index t p q r rfl)).symm
  refine Eq.trans ?_ (Cert.Lib.DenseBias.dense_host_entry _ _ r q).symm
  refine Finset.sum_congr rfl fun k _ => ?_
  exact congrArg₂ (· * ·) (left_block_entry V c t p k r rfl) (right_block_entry V c t k q)

/-- An index of the result is in point t's block iff its row is among the block's rows. -/
theorem mem_block (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v32).slice (win0_2.rect t)).set ↔ _
  rw [View.set_slice_whole, Rect.mem_set_unit]
  exact Iff.rfl

/-- Every row of the result is in some point's block: row r in block r / 10000. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  refine ⟨⟨(i 0).val / 10000, by rw [hN]; omega⟩, flush0_2 _, ?_⟩
  rw [mem_block]
  obtain ⟨-, -, -, -, e4, e5⟩ := block_index ⟨(i 0).val / 10000, by rw [hN]; omega⟩
  intro a
  match a with
  | ⟨0, _⟩ =>
    show win0_2.index _ (0 : Fin 2) * 10000 ≤ (i 0).val ∧ (i 0).val < win0_2.index _ (0 : Fin 2) * 10000 + 10000
    rw [e4]; show (i 0).val / 10000 * 10000 ≤ (i 0).val ∧ (i 0).val < (i 0).val / 10000 * 10000 + 10000; omega
  | ⟨1, _⟩ =>
    show win0_2.index _ (1 : Fin 2) * 128 ≤ (i 1).val ∧ (i 1).val < win0_2.index _ (1 : Fin 2) * 128 + 128
    rw [e5]; omega

/-- After the region the result array is the product of the whole matrices as the region found them. -/
theorem value (c : Dev nD) : (dat0 V c).arrAt 2 cfg0.N = whole (V c main_arg0) (V c main_arg3) :=
  (dat0 V c).arrAt_eq_of_cover 2 (whole (V c main_arg0) (V c main_arg3)) (fun t _ => flushed_eq V c t) covered

end Cert.KernelIdeal.DenseOne

end
-- ==== Proof.BiasOne.lean ====
/-
  The first layer's bias step with its maximum against zero, computed by the kernel's second region, as one operation on the whole array.

  The region takes ten blocks of 10000 rows of its input, one per grid point, adds the one-row bias matrix to every row
  of the block and takes the maximum with zero, and writes the block back as the same rows of the result.  Entry (r, q) of the
  result is max (x (r, q) + bias q) 0 whichever block row r lies in, so the ten blocks written back are together the
  bias step applied to the whole input.
-/
import proofs.«144157_j74010876444913_1_alg».proof.Proof.Gen.KernelIdeal.Frame
import proofs.«144157_j74010876444913_1_alg».proof.Proof.LibDenseBias
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.BiasOne

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- A one-row matrix fits down the rows of the result; a scalar fits everywhere. -/
theorem row_fits : (⟨2, ![1, 128]⟩ : Shape).BroadcastsInDim ⟨2, ![100000, 128]⟩ (![0, 1] : Fin 2 → Fin 2) := by decide
theorem scalar_fits : (⟨0, ![]⟩ : Shape).BroadcastsInDim ⟨2, ![100000, 128]⟩ (![] : Fin 0 → Fin 2) := by decide

/-- The bias step on the whole input, as the host would form it. -/
abbrev whole (X : FVec Ideal ⟨2, ![100000, 128]⟩ .f32) (R : FVec Ideal ⟨2, ![1, 128]⟩ .f32) :
    FVec Ideal ⟨2, ![100000, 128]⟩ .f32 :=
  maximumf (addf X (broadcastInDim ⟨2, ![100000, 128]⟩ (![0, 1] : Fin 2 → Fin 2) row_fits R))
    (broadcastInDim ⟨2, ![100000, 128]⟩ (![] : Fin 0 → Fin 2) scalar_fits (constant (F := Ideal) ⟨0, ![]⟩ .f32 0x00000000#32))

/-- Where the blocks sit: at grid point t the input's and the result's blocks are block t of the rows, the bias row's
    block is the whole row. -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's stored value on a block. -/
theorem stored_eq (x0 : Vec Ideal S10000x128 .f32) (x1 : Vec Ideal S1x128 .f32) :
    k1_pay1 x0 x1 = maximumf (addf (shapeCast ⟨2, ![10000, 128]⟩ x0 shapeCasts_S10000x128_S10000x128)
        (broadcastTo ⟨2, ![10000, 128]⟩ (shapeCast ⟨2, ![1, 128]⟩ x1 shapeCasts_S1x128_S1x128) broadcasts_S1x128_S10000x128))
      (broadcast ⟨2, ![10000, 128]⟩ (Scalar.ofBits (F := Ideal) .f32 0x00000000#32)) := rfl

theorem stored_entry (x0 : Vec Ideal S10000x128 .f32) (x1 : Vec Ideal S1x128 .f32) (p : Fin 10000) (q : Fin 128) :
    k1_pay1 x0 x1 (ix2 p q) = max (x0 (ix2 p q) + x1 (ix2 (0 : Fin 1) q)) (Ideal.ofBits .f32 0x00000000#32) :=
  (congrFun (stored_eq x0 x1) (ix2 p q)).trans
    (Cert.Lib.DenseBias.bias_relu_block_entry x0 x1 shapeCasts_S10000x128_S10000x128 shapeCasts_S1x128_S1x128 broadcasts_S1x128_S10000x128 p q)

/-- Row p of the input's block at point t is row 10000 t + p of the input. -/
theorem in_block_entry (c : Dev nD) (t : Fin cfg1.N) (p : Fin 10000) (q : Fin 128) (r : Fin 100000)
    (hr : r.val = t.val * 10000 + p.val) :
    (iblk1 V c 0 t : Vec Ideal S10000x128 .f32) (ix2 p q) = (V c main_v45 : FVec Ideal ⟨2, ![100000, 128]⟩ .f32) (ix2 r q) := by
  obtain ⟨e0, e1, -⟩ := block_index t
  unfold iblk1
  rw [View.read_apply]
  show V c main_v45 _ = V c main_v45 _
  refine congrArg (V c main_v45) ?_
  funext ax; apply Fin.ext
  match ax with
  | ⟨0, _⟩ => show win1_0.index t (0 : Fin 2) * 10000 + 1 * p.val = r.val; rw [e0, hr]; omega
  | ⟨1, _⟩ => show win1_0.index t (1 : Fin 2) * 128 + 1 * q.val = q.val; rw [e1]; omega

/-- The bias row's block at every point is the row. -/
theorem row_block_entry (c : Dev nD) (t : Fin cfg1.N) (q : Fin 128) :
    (iblk1 V c 1 t : Vec Ideal S1x128 .f32) (ix2 (0 : Fin 1) q) = (V c main_v46 : FVec Ideal ⟨2, ![1, 128]⟩ .f32) (ix2 (0 : Fin 1) q) := by
  obtain ⟨-, -, e2, e3, -⟩ := block_index t
  unfold iblk1
  rw [View.read_apply]
  show V c main_v46 _ = V c main_v46 _
  refine congrArg (V c main_v46) ?_
  funext ax; apply Fin.ext
  match ax with
  | ⟨0, _⟩ => show win1_1.index t (0 : Fin 2) * 1 + 1 * 0 = 0; rw [e2]
  | ⟨1, _⟩ => show win1_1.index t (1 : Fin 2) * 128 + 1 * q.val = q.val; rw [e3]; omega

/-- Entry (p, q) of the result's block at point t is entry (10000 t + p, q) of the result. -/
theorem out_block_index (t : Fin cfg1.N) (p : Fin 10000) (q : Fin 128) (r : Fin 100000)
    (hr : r.val = t.val * 10000 + p.val) :
    ((cfg1.win 2).blk t).view.emb (ix2 p q) = (ix2 r q : (⟨2, ![100000, 128]⟩ : Shape).Idx) := by
  obtain ⟨-, -, -, -, e4, e5⟩ := block_index t
  funext ax; apply Fin.ext
  match ax with
  | ⟨0, _⟩ => show win1_2.index t (0 : Fin 2) * 10000 + 1 * p.val = r.val; rw [e4, hr]; omega
  | ⟨1, _⟩ => show win1_2.index t (1 : Fin 2) * 128 + 1 * q.val = q.val; rw [e5]; omega

/-- What point t writes back is block t of the bias step on the whole input. -/
theorem flushed_eq (c : Dev nD) (t : Fin cfg1.N) :
    (dat1 V c).flushed 2 t = ((cfg1.win 2).blk t).view.read (Elt Ideal) (whole (V c main_v45) (V c main_v46)) := by
  show (cfg1.win 2).cut (grid1.coords t) ((dat1 V c).after 2 t) = _
  rw [after1_2]
  unfold out1_2
  rw [View.canon_unit_zero hz]
  simp only [View.ld_unit_zero (S := S10000x128) hz, View.ld_unit_zero (S := S1x128) hz]
  refine funext fun (j : (⟨2, ![10000, 128]⟩ : Shape).Idx) => ?_
  obtain ⟨p, q, rfl⟩ : ∃ (p : Fin 10000) (q : Fin 128), j = ix2 p q := ⟨j 0, j 1, eq_ix2 j⟩
  have ht : t.val < 10 := by have h := t.isLt; have hN : cfg1.N = 10 := N_1; omega
  have hp : p.val < 10000 := p.isLt
  let r : Fin 100000 := ⟨t.val * 10000 + p.val, by omega⟩
  show k1_pay1 (iblk1 V c 0 t) (iblk1 V c 1 t) (ix2 p q)
    = whole (V c main_v45) (V c main_v46) (((cfg1.win 2).blk t).view.emb (ix2 p q))
  refine (stored_entry _ _ p q).trans ?_
  refine Eq.trans ?_ (congrArg (whole (V c main_v45) (V c main_v46)) (out_block_index t p q r rfl)).symm
  refine Eq.trans ?_ (Cert.Lib.DenseBias.bias_relu_host_entry _ _ row_fits scalar_fits r q).symm
  exact congrArg₂ (fun u v => max (u + v) (Ideal.ofBits .f32 0x00000000#32)) (in_block_entry V c t p q r rfl) (row_block_entry V c t q)

/-- An index of the result is in point t's block iff its row is among the block's rows. -/
theorem mem_block (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v47).slice (win1_2.rect t)).set ↔ _
  rw [View.set_slice_whole, Rect.mem_set_unit]
  exact Iff.rfl

/-- Every row of the result is in some point's block: row r in block r / 10000. -/
theorem covered (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 10 := N_1
  refine ⟨⟨(i 0).val / 10000, by rw [hN]; omega⟩, flush1_2 _, ?_⟩
  rw [mem_block]
  obtain ⟨-, -, -, -, e4, e5⟩ := block_index ⟨(i 0).val / 10000, by rw [hN]; omega⟩
  intro a
  match a with
  | ⟨0, _⟩ =>
    show win1_2.index _ (0 : Fin 2) * 10000 ≤ (i 0).val ∧ (i 0).val < win1_2.index _ (0 : Fin 2) * 10000 + 10000
    rw [e4]; show (i 0).val / 10000 * 10000 ≤ (i 0).val ∧ (i 0).val < (i 0).val / 10000 * 10000 + 10000; omega
  | ⟨1, _⟩ =>
    show win1_2.index _ (1 : Fin 2) * 128 ≤ (i 1).val ∧ (i 1).val < win1_2.index _ (1 : Fin 2) * 128 + 128
    rw [e5]; omega

/-- After the region the result array is the bias step applied to the whole input as the region found it. -/
theorem value (c : Dev nD) : (dat1 V c).arrAt 2 cfg1.N = whole (V c main_v45) (V c main_v46) :=
  (dat1 V c).arrAt_eq_of_cover 2 (whole (V c main_v45) (V c main_v46)) (fun t _ => flushed_eq V c t) covered

end Cert.KernelIdeal.BiasOne

end
-- ==== Proof.DenseTwo.lean ====
/-
  The second layer's dense product, computed by the kernel's third region, as one matrix product.

  The region multiplies ten blocks of 10000 rows of the left matrix, one per grid point, by the whole right matrix, and
  writes each product back as the same block of rows of the result.  Row r of the result lies in block r / 10000 and
  reads only row r of the left matrix, so the ten blocks written back are together the product of the whole matrices:
  entry (r, q) is the sum over k of A (r, k) · B (k, q).
-/
import proofs.«144157_j74010876444913_1_alg».proof.Proof.Gen.KernelIdeal.Frame
import proofs.«144157_j74010876444913_1_alg».proof.Proof.LibDenseBias
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.DenseTwo

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of the whole matrices, as the host would form it. -/
abbrev whole (A : FVec Ideal ⟨2, ![100000, 128]⟩ .f32) (B : FVec Ideal ⟨2, ![128, 64]⟩ .f32) :
    FVec Ideal ⟨2, ![100000, 64]⟩ .f32 :=
  Host.dotGeneral (F := Ideal) (DotDims.plain 100000 128 64) none A B

/-- Where the blocks sit: at grid point t the left matrix's and the result's blocks are block t of the rows, the right
    matrix's block is the whole matrix. -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's stored value on a block: the plain product of the block by the right matrix into zero. -/
theorem stored_eq (x0 : Vec Ideal S10000x128 .f32) (x1 : Vec Ideal S128x64 .f32) :
    k2_pay1 x0 x1 = matmul (DotDims.plain 10000 128 64) none (truncf .bf16 x0 bitsLt_bf16_f32) (truncf .bf16 x1 bitsLt_bf16_f32)
      (constant (F := Ideal) ⟨2, ![10000, 64]⟩ .f32 0x00000000#32) := by
  unfold k2_pay1
  simp only [shapeCast_self]
  rfl

theorem stored_entry (x0 : Vec Ideal S10000x128 .f32) (x1 : Vec Ideal S128x64 .f32) (p : Fin 10000) (q : Fin 64) :
    k2_pay1 x0 x1 (ix2 p q) = ∑ k : Fin 128, x0 (ix2 p k) * x1 (ix2 k q) :=
  (congrFun (stored_eq x0 x1) (ix2 p q)).trans (Cert.Lib.DenseBias.dense_block_entry bitsLt_bf16_f32 x0 x1 p q)

/-- Row p of the left matrix's block at point t is row 10000 t + p of the matrix. -/
theorem left_block_entry (c : Dev nD) (t : Fin cfg2.N) (p : Fin 10000) (k : Fin 128) (r : Fin 100000)
    (hr : r.val = t.val * 10000 + p.val) :
    (iblk2 V c 0 t : Vec Ideal S10000x128 .f32) (ix2 p k) = (V c main_v47 : FVec Ideal ⟨2, ![100000, 128]⟩ .f32) (ix2 r k) := by
  obtain ⟨e0, e1, -⟩ := block_index t
  unfold iblk2
  rw [View.read_apply]
  show V c main_v47 _ = V c main_v47 _
  refine congrArg (V c main_v47) ?_
  funext ax; apply Fin.ext
  match ax with
  | ⟨0, _⟩ => show win2_0.index t (0 : Fin 2) * 10000 + 1 * p.val = r.val; rw [e0, hr]; omega
  | ⟨1, _⟩ => show win2_0.index t (1 : Fin 2) * 128 + 1 * k.val = k.val; rw [e1]; omega

/-- The right matrix's block at every point is the matrix. -/
theorem right_block_entry (c : Dev nD) (t : Fin cfg2.N) (k : Fin 128) (q : Fin 64) :
    (iblk2 V c 1 t : Vec Ideal S128x64 .f32) (ix2 k q) = (V c main_arg5 : FVec Ideal ⟨2, ![128, 64]⟩ .f32) (ix2 k q) := by
  obtain ⟨-, -, e2, e3, -⟩ := block_index t
  unfold iblk2
  rw [View.read_apply]
  show V c main_arg5 _ = V c main_arg5 _
  refine congrArg (V c main_arg5) ?_
  funext ax; apply Fin.ext
  match ax with
  | ⟨0, _⟩ => show win2_1.index t (0 : Fin 2) * 128 + 1 * k.val = k.val; rw [e2]; omega
  | ⟨1, _⟩ => show win2_1.index t (1 : Fin 2) * 64 + 1 * q.val = q.val; rw [e3]; omega

/-- Entry (p, q) of the result's block at point t is entry (10000 t + p, q) of the result. -/
theorem out_block_index (t : Fin cfg2.N) (p : Fin 10000) (q : Fin 64) (r : Fin 100000)
    (hr : r.val = t.val * 10000 + p.val) :
    ((cfg2.win 2).blk t).view.emb (ix2 p q) = (ix2 r q : (⟨2, ![100000, 64]⟩ : Shape).Idx) := by
  obtain ⟨-, -, -, -, e4, e5⟩ := block_index t
  funext ax; apply Fin.ext
  match ax with
  | ⟨0, _⟩ => show win2_2.index t (0 : Fin 2) * 10000 + 1 * p.val = r.val; rw [e4, hr]; omega
  | ⟨1, _⟩ => show win2_2.index t (1 : Fin 2) * 64 + 1 * q.val = q.val; rw [e5]; omega

/-- What point t writes back is block t of the whole product. -/
theorem flushed_eq (c : Dev nD) (t : Fin cfg2.N) :
    (dat2 V c).flushed 2 t = ((cfg2.win 2).blk t).view.read (Elt Ideal) (whole (V c main_v47) (V c main_arg5)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x64) hz]
  refine funext fun (j : (⟨2, ![10000, 64]⟩ : Shape).Idx) => ?_
  obtain ⟨p, q, rfl⟩ : ∃ (p : Fin 10000) (q : Fin 64), j = ix2 p q := ⟨j 0, j 1, eq_ix2 j⟩
  have ht : t.val < 10 := by have h := t.isLt; have hN : cfg2.N = 10 := N_2; omega
  have hp : p.val < 10000 := p.isLt
  let r : Fin 100000 := ⟨t.val * 10000 + p.val, by omega⟩
  show k2_pay1 (iblk2 V c 0 t) (iblk2 V c 1 t) (ix2 p q)
    = whole (V c main_v47) (V c main_arg5) (((cfg2.win 2).blk t).view.emb (ix2 p q))
  refine (stored_entry _ _ p q).trans ?_
  refine Eq.trans ?_ (congrArg (whole (V c main_v47) (V c main_arg5)) (out_block_index t p q r rfl)).symm
  refine Eq.trans ?_ (Cert.Lib.DenseBias.dense_host_entry _ _ r q).symm
  refine Finset.sum_congr rfl fun k _ => ?_
  exact congrArg₂ (· * ·) (left_block_entry V c t p k r rfl) (right_block_entry V c t k q)

/-- An index of the result is in point t's block iff its row is among the block's rows. -/
theorem mem_block (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v48).slice (win2_2.rect t)).set ↔ _
  rw [View.set_slice_whole, Rect.mem_set_unit]
  exact Iff.rfl

/-- Every row of the result is in some point's block: row r in block r / 10000. -/
theorem covered (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  refine ⟨⟨(i 0).val / 10000, by rw [hN]; omega⟩, flush2_2 _, ?_⟩
  rw [mem_block]
  obtain ⟨-, -, -, -, e4, e5⟩ := block_index ⟨(i 0).val / 10000, by rw [hN]; omega⟩
  intro a
  match a with
  | ⟨0, _⟩ =>
    show win2_2.index _ (0 : Fin 2) * 10000 ≤ (i 0).val ∧ (i 0).val < win2_2.index _ (0 : Fin 2) * 10000 + 10000
    rw [e4]; show (i 0).val / 10000 * 10000 ≤ (i 0).val ∧ (i 0).val < (i 0).val / 10000 * 10000 + 10000; omega
  | ⟨1, _⟩ =>
    show win2_2.index _ (1 : Fin 2) * 64 ≤ (i 1).val ∧ (i 1).val < win2_2.index _ (1 : Fin 2) * 64 + 64
    rw [e5]; omega

/-- After the region the result array is the product of the whole matrices as the region found them. -/
theorem value (c : Dev nD) : (dat2 V c).arrAt 2 cfg2.N = whole (V c main_v47) (V c main_arg5) :=
  (dat2 V c).arrAt_eq_of_cover 2 (whole (V c main_v47) (V c main_arg5)) (fun t _ => flushed_eq V c t) covered

end Cert.KernelIdeal.DenseTwo

end
-- ==== Proof.BiasTwo.lean ====
/-
  The second layer's bias step, computed by the kernel's fourth region, as one operation on the whole array.

  The region takes ten blocks of 10000 rows of its input, one per grid point, adds the one-row bias matrix to every row
  of the block, and writes the block back as the same rows of the result.  Entry (r, q) of the
  result is x (r, q) + bias q whichever block row r lies in, so the ten blocks written back are together the
  bias step applied to the whole input.
-/
import proofs.«144157_j74010876444913_1_alg».proof.Proof.Gen.KernelIdeal.Frame
import proofs.«144157_j74010876444913_1_alg».proof.Proof.LibDenseBias
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.BiasTwo

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- A one-row matrix fits down the rows of the result; a scalar fits everywhere. -/
theorem row_fits : (⟨2, ![1, 64]⟩ : Shape).BroadcastsInDim ⟨2, ![100000, 64]⟩ (![0, 1] : Fin 2 → Fin 2) := by decide
theorem scalar_fits : (⟨0, ![]⟩ : Shape).BroadcastsInDim ⟨2, ![100000, 64]⟩ (![] : Fin 0 → Fin 2) := by decide

/-- The bias step on the whole input, as the host would form it. -/
abbrev whole (X : FVec Ideal ⟨2, ![100000, 64]⟩ .f32) (R : FVec Ideal ⟨2, ![1, 64]⟩ .f32) :
    FVec Ideal ⟨2, ![100000, 64]⟩ .f32 :=
  addf X (broadcastInDim ⟨2, ![100000, 64]⟩ (![0, 1] : Fin 2 → Fin 2) row_fits R)

/-- Where the blocks sit: at grid point t the input's and the result's blocks are block t of the rows, the bias row's
    block is the whole row. -/
theorem block_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body's stored value on a block. -/
theorem stored_eq (x0 : Vec Ideal S10000x64 .f32) (x1 : Vec Ideal S1x64 .f32) :
    k3_pay1 x0 x1 = addf (shapeCast ⟨2, ![10000, 64]⟩ x0 shapeCasts_S10000x64_S10000x64)
        (broadcastTo ⟨2, ![10000, 64]⟩ (shapeCast ⟨2, ![1, 64]⟩ x1 shapeCasts_S1x64_S1x64) broadcasts_S1x64_S10000x64) := rfl

theorem stored_entry (x0 : Vec Ideal S10000x64 .f32) (x1 : Vec Ideal S1x64 .f32) (p : Fin 10000) (q : Fin 64) :
    k3_pay1 x0 x1 (ix2 p q) = x0 (ix2 p q) + x1 (ix2 (0 : Fin 1) q) :=
  (congrFun (stored_eq x0 x1) (ix2 p q)).trans
    (Cert.Lib.DenseBias.bias_block_entry x0 x1 shapeCasts_S10000x64_S10000x64 shapeCasts_S1x64_S1x64 broadcasts_S1x64_S10000x64 p q)

/-- Row p of the input's block at point t is row 10000 t + p of the input. -/
theorem in_block_entry (c : Dev nD) (t : Fin cfg3.N) (p : Fin 10000) (q : Fin 64) (r : Fin 100000)
    (hr : r.val = t.val * 10000 + p.val) :
    (iblk3 V c 0 t : Vec Ideal S10000x64 .f32) (ix2 p q) = (V c main_v61 : FVec Ideal ⟨2, ![100000, 64]⟩ .f32) (ix2 r q) := by
  obtain ⟨e0, e1, -⟩ := block_index t
  unfold iblk3
  rw [View.read_apply]
  show V c main_v61 _ = V c main_v61 _
  refine congrArg (V c main_v61) ?_
  funext ax; apply Fin.ext
  match ax with
  | ⟨0, _⟩ => show win3_0.index t (0 : Fin 2) * 10000 + 1 * p.val = r.val; rw [e0, hr]; omega
  | ⟨1, _⟩ => show win3_0.index t (1 : Fin 2) * 64 + 1 * q.val = q.val; rw [e1]; omega

/-- The bias row's block at every point is the row. -/
theorem row_block_entry (c : Dev nD) (t : Fin cfg3.N) (q : Fin 64) :
    (iblk3 V c 1 t : Vec Ideal S1x64 .f32) (ix2 (0 : Fin 1) q) = (V c main_v62 : FVec Ideal ⟨2, ![1, 64]⟩ .f32) (ix2 (0 : Fin 1) q) := by
  obtain ⟨-, -, e2, e3, -⟩ := block_index t
  unfold iblk3
  rw [View.read_apply]
  show V c main_v62 _ = V c main_v62 _
  refine congrArg (V c main_v62) ?_
  funext ax; apply Fin.ext
  match ax with
  | ⟨0, _⟩ => show win3_1.index t (0 : Fin 2) * 1 + 1 * 0 = 0; rw [e2]
  | ⟨1, _⟩ => show win3_1.index t (1 : Fin 2) * 64 + 1 * q.val = q.val; rw [e3]; omega

/-- Entry (p, q) of the result's block at point t is entry (10000 t + p, q) of the result. -/
theorem out_block_index (t : Fin cfg3.N) (p : Fin 10000) (q : Fin 64) (r : Fin 100000)
    (hr : r.val = t.val * 10000 + p.val) :
    ((cfg3.win 2).blk t).view.emb (ix2 p q) = (ix2 r q : (⟨2, ![100000, 64]⟩ : Shape).Idx) := by
  obtain ⟨-, -, -, -, e4, e5⟩ := block_index t
  funext ax; apply Fin.ext
  match ax with
  | ⟨0, _⟩ => show win3_2.index t (0 : Fin 2) * 10000 + 1 * p.val = r.val; rw [e4, hr]; omega
  | ⟨1, _⟩ => show win3_2.index t (1 : Fin 2) * 64 + 1 * q.val = q.val; rw [e5]; omega

/-- What point t writes back is block t of the bias step on the whole input. -/
theorem flushed_eq (c : Dev nD) (t : Fin cfg3.N) :
    (dat3 V c).flushed 2 t = ((cfg3.win 2).blk t).view.read (Elt Ideal) (whole (V c main_v61) (V c main_v62)) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  refine funext fun (j : (⟨2, ![10000, 64]⟩ : Shape).Idx) => ?_
  obtain ⟨p, q, rfl⟩ : ∃ (p : Fin 10000) (q : Fin 64), j = ix2 p q := ⟨j 0, j 1, eq_ix2 j⟩
  have ht : t.val < 10 := by have h := t.isLt; have hN : cfg3.N = 10 := N_3; omega
  have hp : p.val < 10000 := p.isLt
  let r : Fin 100000 := ⟨t.val * 10000 + p.val, by omega⟩
  show k3_pay1 (iblk3 V c 0 t) (iblk3 V c 1 t) (ix2 p q)
    = whole (V c main_v61) (V c main_v62) (((cfg3.win 2).blk t).view.emb (ix2 p q))
  refine (stored_entry _ _ p q).trans ?_
  refine Eq.trans ?_ (congrArg (whole (V c main_v61) (V c main_v62)) (out_block_index t p q r rfl)).symm
  refine Eq.trans ?_ (Cert.Lib.DenseBias.bias_host_entry _ _ row_fits r q).symm
  exact congrArg₂ (· + ·) (in_block_entry V c t p q r rfl) (row_block_entry V c t q)

/-- An index of the result is in point t's block iff its row is among the block's rows. -/
theorem mem_block (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v63).slice (win3_2.rect t)).set ↔ _
  rw [View.set_slice_whole, Rect.mem_set_unit]
  exact Iff.rfl

/-- Every row of the result is in some point's block: row r in block r / 10000. -/
theorem covered (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  refine ⟨⟨(i 0).val / 10000, by rw [hN]; omega⟩, flush3_2 _, ?_⟩
  rw [mem_block]
  obtain ⟨-, -, -, -, e4, e5⟩ := block_index ⟨(i 0).val / 10000, by rw [hN]; omega⟩
  intro a
  match a with
  | ⟨0, _⟩ =>
    show win3_2.index _ (0 : Fin 2) * 10000 ≤ (i 0).val ∧ (i 0).val < win3_2.index _ (0 : Fin 2) * 10000 + 10000
    rw [e4]; show (i 0).val / 10000 * 10000 ≤ (i 0).val ∧ (i 0).val < (i 0).val / 10000 * 10000 + 10000; omega
  | ⟨1, _⟩ =>
    show win3_2.index _ (1 : Fin 2) * 64 ≤ (i 1).val ∧ (i 1).val < win3_2.index _ (1 : Fin 2) * 64 + 64
    rw [e5]; omega

/-- After the region the result array is the bias step applied to the whole input as the region found it. -/
theorem value (c : Dev nD) : (dat3 V c).arrAt 2 cfg3.N = whole (V c main_v61) (V c main_v62) :=
  (dat3 V c).arrAt_eq_of_cover 2 (whole (V c main_v61) (V c main_v62)) (fun t _ => flushed_eq V c t) covered

end Cert.KernelIdeal.BiasTwo

end
-- ==== Proof.GraphConv.lean ====
/-
  A two-layer graph convolution with self loops and symmetric normalisation, as one function of its arguments.

  The graph has 100000 nodes and 1600000 weighted edges; every node also gets a self loop of weight 1, so there are
  1700000 edges in all.  With src e and dst e the end nodes of edge e and w e its weight,

    deg n   = the sum of w e over the edges e with dst e = n,
    dinv n  = 1 / sqrt (deg n) where deg n > 0, and 0 elsewhere,
    norm e  = dinv (src e) · w e · dinv (dst e),

  and one layer sends a node-feature matrix H to

    (aggregate (H · W)) + b,   where   aggregate Y n = the sum over the edges e with dst e = n of Y (src e) · norm e.

  The network is layer 2 applied to max (layer 1 applied to x) 0.

  Everything is spelt with the host's operations on the extended reals, so that a program which applies these
  operations in this order has this function as its result by unfolding alone: the concatenation with the self loops,
  the accumulating scatters (segment sums), the gathers with their negative-index wrap, the two matrix products, the
  bias rows repeated down the nodes.
-/
import Idealize.ShloMosaic.PureOps.Ideal
import Idealize.ShloMosaic.PureOps.Ideal.Laws
import Idealize.ShloMosaic.Lib.ValueIdx

noncomputable section

namespace Cert.Gcn

open Idealize.ShloMosaic

/-! ## Shapes -/

/-- The edge list: row 0 the source nodes, row 1 the target nodes. -/
abbrev SEnds : Shape := ⟨2, ![2, 1600000]⟩
abbrev SEndsRow : Shape := ⟨2, ![1, 1600000]⟩
/-- One entry per given edge. -/
abbrev SEdge : Shape := ⟨1, ![1600000]⟩
/-- One entry per node. -/
abbrev SNode : Shape := ⟨1, ![100000]⟩
/-- One entry per edge, self loops included; and the same as a column. -/
abbrev SAll : Shape := ⟨1, ![1700000]⟩
abbrev SAllCol : Shape := ⟨2, ![1700000, 1]⟩
abbrev SScalar : Shape := ⟨0, ![]⟩
/-- Node features and per-edge messages, of width 128 and 64. -/
abbrev SFeat128 : Shape := ⟨2, ![100000, 128]⟩
abbrev SMsg128 : Shape := ⟨2, ![1700000, 128]⟩
abbrev SFeat64 : Shape := ⟨2, ![100000, 64]⟩
abbrev SMsg64 : Shape := ⟨2, ![1700000, 64]⟩

/-! ## The edges with their self loops -/

/-- 1600000 edges and then 100000 self loops are 1700000 entries. -/
theorem edges_then_loops : Shape.Concatenates [SEdge, SNode] SAll 0 := by decide

/-- The source node of every edge, then node n for the self loop of node n. -/
def src (ends : IVec SEnds 32) : IVec SAll 32 :=
  concatenate SAll 0 [⟨SEdge, shapeCast SEdge (extractStridedSlice SEndsRow ![0, 0] ends (by decide)) (by decide)⟩,
    ⟨SNode, iotaInDim SNode 32 0⟩] edges_then_loops

/-- The target node of every edge, then node n for the self loop of node n. -/
def dst (ends : IVec SEnds 32) : IVec SAll 32 :=
  concatenate SAll 0 [⟨SEdge, shapeCast SEdge (extractStridedSlice SEndsRow ![1, 0] ends (by decide)) (by decide)⟩,
    ⟨SNode, iotaInDim SNode 32 0⟩] edges_then_loops

/-- The weight of every edge, then 1 for each self loop. -/
def weights (w : FVec Ideal SEdge .f32) : FVec Ideal SAll .f32 :=
  concatenate SAll 0 [⟨SEdge, w⟩,
    ⟨SNode, broadcastInDim SNode (![] : Fin 0 → Fin 1) (by decide) (constant (F := Ideal) SScalar .f32 0x3F800000#32)⟩] edges_then_loops

/-- A per-edge vector stood up as a column (the form the gathers and scatters take their indices in). -/
def column {α : Type} (v : SAll.Idx → α) : SAllCol.Idx → α :=
  broadcastInDim SAllCol (![0] : Fin 1 → Fin 2) (by decide) v

/-- A negative index counts from the end: i + 100000 where i < 0, else i. -/
def wrap (ix : IVec SAll 32) : IVec SAll 32 :=
  select (cmpi .slt ix (broadcastInDim SAll (![] : Fin 0 → Fin 1) (by decide) (constantI SScalar 32 0#32)))
    (addi ix (broadcastInDim SAll (![] : Fin 0 → Fin 1) (by decide) (constantI SScalar 32 100000#32))) ix

/-! ## The normalisation -/

/-- Segment sum of a per-edge vector into the nodes; reading a node vector at every edge's index. -/
def intoNodes : ScatterDims SNode SAllCol SAll where
  updateWindowDims := []
  insertedWindowDims := [0]
  scatterDimsToOperandDims := [0]
  indexVectorDim := 1
def atEdges : GatherDims SNode SAllCol SAll where
  offsetDims := []
  collapsedSliceDims := [0]
  operandBatchingDims := []
  startIndicesBatchingDims := []
  startIndexMap := [0]
  indexVectorDim := 1
  sliceSizes := ![1]

def zeroNodes : FVec Ideal SNode .f32 :=
  broadcastInDim SNode (![] : Fin 0 → Fin 1) (by decide) (constant (F := Ideal) SScalar .f32 0x00000000#32)

/-- deg n: the weights of the edges into n, summed. -/
def degree (ends : IVec SEnds 32) (w : FVec Ideal SEdge .f32) : FVec Ideal SNode .f32 :=
  Host.scatterAdd (F := Ideal) intoNodes zeroNodes (column (dst ends)) (weights w)

/-- dinv n: 1 / sqrt (deg n) where deg n > 0, else 0. -/
def invSqrtDegree (ends : IVec SEnds 32) (w : FVec Ideal SEdge .f32) : FVec Ideal SNode .f32 :=
  select (cmpf .ogt (degree ends w) zeroNodes) (Host.rsqrt (degree ends w))
    (broadcastInDim SNode (![] : Fin 0 → Fin 1) (by decide) (id (constant (F := Ideal) SScalar .f32 0x00000000#32)))

/-- norm e = dinv (src e) · w e · dinv (dst e), from dinv and the edges. -/
def normOf (dinv : FVec Ideal SNode .f32) (s d : IVec SAll 32) (wAll : FVec Ideal SAll .f32) : FVec Ideal SAll .f32 :=
  mulf (mulf (Host.gather atEdges dinv (column (wrap s))) wAll) (Host.gather atEdges dinv (column (wrap d)))

def edgeNorm (ends : IVec SEnds 32) (w : FVec Ideal SEdge .f32) : FVec Ideal SAll .f32 :=
  normOf (invSqrtDegree ends w) (src ends) (dst ends) (weights w)

/-! ## Aggregation over the edges, width 128 and width 64 -/

def intoNodes128 : ScatterDims SFeat128 SAllCol SMsg128 where
  updateWindowDims := [1]
  insertedWindowDims := [0]
  scatterDimsToOperandDims := [0]
  indexVectorDim := 1
def atEdges128 : GatherDims SFeat128 SAllCol SMsg128 where
  offsetDims := [1]
  collapsedSliceDims := [0]
  operandBatchingDims := []
  startIndicesBatchingDims := []
  startIndexMap := [0]
  indexVectorDim := 1
  sliceSizes := ![1, 128]
def intoNodes64 : ScatterDims SFeat64 SAllCol SMsg64 where
  updateWindowDims := [1]
  insertedWindowDims := [0]
  scatterDimsToOperandDims := [0]
  indexVectorDim := 1
def atEdges64 : GatherDims SFeat64 SAllCol SMsg64 where
  offsetDims := [1]
  collapsedSliceDims := [0]
  operandBatchingDims := []
  startIndicesBatchingDims := []
  startIndexMap := [0]
  indexVectorDim := 1
  sliceSizes := ![1, 64]

/-- aggregate Y n = the sum over the edges e into n of Y (src e) · norm e, from the edges and their norms. -/
def aggregateWith128 (y : FVec Ideal SFeat128 .f32) (s d : IVec SAll 32) (norm : FVec Ideal SAll .f32) : FVec Ideal SFeat128 .f32 :=
  Host.scatterAdd (F := Ideal) intoNodes128
    (broadcastInDim SFeat128 (![] : Fin 0 → Fin 2) (by decide) (constant (F := Ideal) SScalar .f32 0x00000000#32))
    (column d)
    (mulf (Host.gather atEdges128 y (column (wrap s))) (broadcastInDim SMsg128 (![0, 1] : Fin 2 → Fin 2) (by decide) (column norm)))

def aggregateWith64 (y : FVec Ideal SFeat64 .f32) (s d : IVec SAll 32) (norm : FVec Ideal SAll .f32) : FVec Ideal SFeat64 .f32 :=
  Host.scatterAdd (F := Ideal) intoNodes64
    (broadcastInDim SFeat64 (![] : Fin 0 → Fin 2) (by decide) (constant (F := Ideal) SScalar .f32 0x00000000#32))
    (column d)
    (mulf (Host.gather atEdges64 y (column (wrap s))) (broadcastInDim SMsg64 (![0, 1] : Fin 2 → Fin 2) (by decide) (column norm)))

/-! ## The two layers -/

/-- A bias vector repeated down the nodes. -/
def biasDown128 (b : FVec Ideal ⟨1, ![128]⟩ .f32) : FVec Ideal SFeat128 .f32 :=
  broadcastInDim SFeat128 (![0, 1] : Fin 2 → Fin 2) (by decide) (broadcastInDim ⟨2, ![1, 128]⟩ (![1] : Fin 1 → Fin 2) (by decide) b)
def biasDown64 (b : FVec Ideal ⟨1, ![64]⟩ .f32) : FVec Ideal SFeat64 .f32 :=
  broadcastInDim SFeat64 (![0, 1] : Fin 2 → Fin 2) (by decide) (broadcastInDim ⟨2, ![1, 64]⟩ (![1] : Fin 1 → Fin 2) (by decide) b)

/-- The hidden features: max (aggregate (x · W1) + b1) 0. -/
def hidden (x : FVec Ideal SFeat128 .f32) (ends : IVec SEnds 32) (w : FVec Ideal SEdge .f32)
    (W1 : FVec Ideal ⟨2, ![128, 128]⟩ .f32) (b1 : FVec Ideal ⟨1, ![128]⟩ .f32) : FVec Ideal SFeat128 .f32 :=
  maximumf
    (addf (aggregateWith128 (Host.dotGeneral (F := Ideal) (DotDims.plain 100000 128 128) none x W1) (src ends) (dst ends) (edgeNorm ends w))
      (biasDown128 b1))
    (broadcastInDim SFeat128 (![] : Fin 0 → Fin 2) (by decide) (constant (F := Ideal) SScalar .f32 0x00000000#32))

/-- The network's output: aggregate (hidden · W2) + b2. -/
def output (x : FVec Ideal SFeat128 .f32) (ends : IVec SEnds 32) (w : FVec Ideal SEdge .f32)
    (W1 : FVec Ideal ⟨2, ![128, 128]⟩ .f32) (b1 : FVec Ideal ⟨1, ![128]⟩ .f32)
    (W2 : FVec Ideal ⟨2, ![128, 64]⟩ .f32) (b2 : FVec Ideal ⟨1, ![64]⟩ .f32) : FVec Ideal SFeat64 .f32 :=
  addf (aggregateWith64 (Host.dotGeneral (F := Ideal) (DotDims.plain 100000 128 64) none (hidden x ends w W1 b1) W2) (src ends) (dst ends) (edgeNorm ends w))
    (biasDown64 b2)

end Cert.Gcn

end
-- ==== Proof.LibTypedRefs.lean ====
/-
  Typed references of an inlined host function: a value moved to the buffer's own type and back is itself.

  A host function that was outlined (max(·, 0), log-softmax, …) is written over references that carry the type of the
  tensor they hold.  Each of its operations writes its result through the transport from the tensor's type to the
  buffer's type and reads each operand through the transport back, both along the equation "the buffer's type is the
  tensor's type".  When such a stretch of operations is read back as one composed term, every intermediate value is left
  wrapped in the pair: back ∘ there.  The pair is the identity for ANY typed reference (destruct the reference and
  substitute its equation), so it can be rewritten away without knowing the references.  What then remains is at most
  one transport per buffer that an operation outside the function wrote and one at the function's result, each the
  identity by computation at its literal reference over a variable value.  On a deep body (log-softmax is fifteen
  operations) removing the pairs first keeps the comparison of the composed term with its closed form a comparison of
  syntax, where leaving them in makes it unfold the operations themselves at their full extents.
-/
import Idealize.ShloMosaic.Lib.StableHlo

namespace Cert.Lib.TypedRefs

open Idealize.ShloMosaic Idealize.ShloMosaic.StableHlo

variable {sig : RefSig} {Val : EltTy → Type} {T : BufTy}

/-- To the buffer's type and back. -/
theorem ofBuf_toBuf (x : TRef sig T) (v : T.Contents Val) : x.ofBuf (x.toBuf v) = v := by
  obtain ⟨r, h, h2, h3⟩ := x
  subst h
  rfl

/-- To the tensor's type and back. -/
theorem toBuf_ofBuf (x : TRef sig T) (v : x.ref.ty.Contents Val) : x.toBuf (x.ofBuf v) = v := by
  obtain ⟨r, h, h2, h3⟩ := x
  subst h
  rfl

end Cert.Lib.TypedRefs
-- ==== Proof.Stretches.lean ====
/-
  The kernel program's host stretches, each read from ARBITRARY buffer contents.

  What a stretch of host operations leaves in a buffer is a term of what it found in the buffers it reads.  Stated for any
  contents V the statement never looks inside V, so it can be used at a boundary whose contents are a long fold.

  Before the first region: the edges with their self loops, the normalisation of every edge, and the arguments untouched.
  After the first region: x · W1 aggregated over the edges, b1 laid as a row, the edges and norms untouched.
  After the third region: hidden · W2 aggregated over the edges, b2 laid as a row.
-/
import proofs.«144157_j74010876444913_1_alg».proof.Proof.Gen.KernelIdeal.Launch
import proofs.«144157_j74010876444913_1_alg».proof.Proof.GraphConv
import Idealize.ShloMosaic.Lib.StableHlo.Run
import proofs.«144157_j74010876444913_1_alg».proof.Proof.LibTypedRefs

set_option maxRecDepth 16384

noncomputable section

open Idealize.ShloMosaic Idealize.ShloMosaic.TcCoe Idealize.SL.Sem Idealize.ShloMosaic.StableHlo

namespace Cert.KernelIdeal.Stretch

open Cert.KernelIdeal Cert.KernelIdeal.Gen

variable (V : Valuation τ sig (Elt Ideal))

/-! ## The three stretches before the first region, together -/

/-- The source node of every edge, self loops included. -/
theorem pre_src : StableHlo.after hostOps0_2 (StableHlo.after hostOps0_1 (StableHlo.after hostOps0 V)) (Proc.devRef .tc main_v5) = Cert.Gcn.src (V (Proc.devRef .tc main_arg1)) := by
  after_results_simp
  rfl

/-- The target node of every edge, self loops included. -/
theorem pre_dst : StableHlo.after hostOps0_2 (StableHlo.after hostOps0_1 (StableHlo.after hostOps0 V)) (Proc.devRef .tc main_v6) = Cert.Gcn.dst (V (Proc.devRef .tc main_arg1)) := by
  after_results_simp
  rfl

/-! The outlined selection "dinv where deg > 0, else 0" reads and writes through typed references; at their literal
    buffers the transports are the identity. -/

theorem to_dinv (h1 : main_v15.ty = (⟨S100000, .f32⟩ : BufTy)) (h2 : main_v15.space ≠ .host) (h3 : main_v15.isScoped = false)
    (v : (⟨S100000, .f32⟩ : BufTy).Contents (Elt Ideal)) : (TRef.of main_v15 h1 h2 h3).toBuf v = v := rfl
theorem of_positive (h1 : main_v13.ty = (⟨S100000, .i1⟩ : BufTy)) (h2 : main_v13.space ≠ .host) (h3 : main_v13.isScoped = false)
    (v : main_v13.ty.Contents (Elt Ideal)) : (TRef.of main_v13 h1 h2 h3).ofBuf v = v := rfl
theorem of_rsqrt (h1 : main_v14.ty = (⟨S100000, .f32⟩ : BufTy)) (h2 : main_v14.space ≠ .host) (h3 : main_v14.isScoped = false)
    (v : main_v14.ty.Contents (Elt Ideal)) : (TRef.of main_v14 h1 h2 h3).ofBuf v = v := rfl
theorem of_zero (h1 : main_cst_2.ty = (⟨S_, .f32⟩ : BufTy)) (h2 : main_cst_2.space ≠ .host) (h3 : main_cst_2.isScoped = false)
    (v : main_cst_2.ty.Contents (Elt Ideal)) : (TRef.of main_cst_2 h1 h2 h3).ofBuf v = v := rfl

set_option maxHeartbeats 1000000 in
/-- The normalisation of every edge. -/
theorem pre_norm : StableHlo.after hostOps0_2 (StableHlo.after hostOps0_1 (StableHlo.after hostOps0 V)) (Proc.devRef .tc main_v31) = Cert.Gcn.edgeNorm (V (Proc.devRef .tc main_arg1)) (V (Proc.devRef .tc main_arg2)) := by
  after_results_simp
  simp only [Cert.Lib.TypedRefs.ofBuf_toBuf, to_dinv, of_positive, of_rsqrt, of_zero]
  rfl

theorem pre_arg0 : StableHlo.after hostOps0_2 (StableHlo.after hostOps0_1 (StableHlo.after hostOps0 V)) (Proc.devRef .tc main_arg0) = V (Proc.devRef .tc main_arg0) := by
  after_results_simp
theorem pre_arg3 : StableHlo.after hostOps0_2 (StableHlo.after hostOps0_1 (StableHlo.after hostOps0 V)) (Proc.devRef .tc main_arg3) = V (Proc.devRef .tc main_arg3) := by
  after_results_simp
theorem pre_arg4 : StableHlo.after hostOps0_2 (StableHlo.after hostOps0_1 (StableHlo.after hostOps0 V)) (Proc.devRef .tc main_arg4) = V (Proc.devRef .tc main_arg4) := by
  after_results_simp
theorem pre_arg5 : StableHlo.after hostOps0_2 (StableHlo.after hostOps0_1 (StableHlo.after hostOps0 V)) (Proc.devRef .tc main_arg5) = V (Proc.devRef .tc main_arg5) := by
  after_results_simp
theorem pre_arg6 : StableHlo.after hostOps0_2 (StableHlo.after hostOps0_1 (StableHlo.after hostOps0 V)) (Proc.devRef .tc main_arg6) = V (Proc.devRef .tc main_arg6) := by
  after_results_simp

/-! ## The stretch after the first region -/

/-- The first region's product aggregated over the edges. -/
theorem mid_agg : StableHlo.after hostOps1 V (Proc.devRef .tc main_v45)
    = Cert.Gcn.aggregateWith128 (V (Proc.devRef .tc main_v32)) (V (Proc.devRef .tc main_v5)) (V (Proc.devRef .tc main_v6)) (V (Proc.devRef .tc main_v31)) := by
  after_results_simp
  rfl

/-- b1 laid as a one-row matrix. -/
theorem mid_row : StableHlo.after hostOps1 V (Proc.devRef .tc main_v46) = shapeCast S1x128 (V (Proc.devRef .tc main_arg4)) shapeCasts_S128_S1x128 := by
  after_results_simp
  rfl

theorem mid_keep_v5 : StableHlo.after hostOps1 V (Proc.devRef .tc main_v5) = V (Proc.devRef .tc main_v5) := by
  after_results_simp
theorem mid_keep_v6 : StableHlo.after hostOps1 V (Proc.devRef .tc main_v6) = V (Proc.devRef .tc main_v6) := by
  after_results_simp
theorem mid_keep_v31 : StableHlo.after hostOps1 V (Proc.devRef .tc main_v31) = V (Proc.devRef .tc main_v31) := by
  after_results_simp
theorem mid_keep_arg5 : StableHlo.after hostOps1 V (Proc.devRef .tc main_arg5) = V (Proc.devRef .tc main_arg5) := by
  after_results_simp
theorem mid_keep_arg6 : StableHlo.after hostOps1 V (Proc.devRef .tc main_arg6) = V (Proc.devRef .tc main_arg6) := by
  after_results_simp

/-! ## The stretch after the third region -/

/-- The third region's product aggregated over the edges. -/
theorem last_agg : StableHlo.after hostOps3 V (Proc.devRef .tc main_v61)
    = Cert.Gcn.aggregateWith64 (V (Proc.devRef .tc main_v48)) (V (Proc.devRef .tc main_v5)) (V (Proc.devRef .tc main_v6)) (V (Proc.devRef .tc main_v31)) := by
  after_results_simp
  rfl

/-- b2 laid as a one-row matrix. -/
theorem last_row : StableHlo.after hostOps3 V (Proc.devRef .tc main_v62) = shapeCast S1x64 (V (Proc.devRef .tc main_arg6)) shapeCasts_S64_S1x64 := by
  after_results_simp
  rfl

end Cert.KernelIdeal.Stretch

end
-- ==== Proof.KernelValue.lean ====
/-
  The kernel's program, boundary by boundary: what the buffers that matter hold, as the graph convolution's terms.

  Before the first region the host computes the edges with their self loops (source and target of every edge) and the
  normalisation of every edge; none of these buffers is written again, so every later stretch reads them unchanged.
  The first region leaves x · W1; the next stretch aggregates it over the edges and lays b1 as a row; the second region
  adds the row and takes the maximum with zero (the hidden features); the third region leaves hidden · W2; the last
  stretch aggregates that and lays b2 as a row; the fourth region adds the row.  Put together, the result buffer holds the
  two-layer graph convolution of the arguments.
-/
import proofs.«144157_j74010876444913_1_alg».proof.Proof.Gen.KernelIdeal.Frame
import proofs.«144157_j74010876444913_1_alg».proof.Proof.DenseOne
import proofs.«144157_j74010876444913_1_alg».proof.Proof.BiasOne
import proofs.«144157_j74010876444913_1_alg».proof.Proof.DenseTwo
import proofs.«144157_j74010876444913_1_alg».proof.Proof.BiasTwo
import proofs.«144157_j74010876444913_1_alg».proof.Proof.GraphConv
import proofs.«144157_j74010876444913_1_alg».proof.Proof.LibDenseBias
import proofs.«144157_j74010876444913_1_alg».proof.Proof.Stretches
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen

variable (m : (ℓ : Loc nD τ sig) → Buf (Elt Ideal) ℓ) (ρ : Dev nD → PrngReg) (c : Dev nD)

/-! ## At the first region's entry: the edges, their normalisation, and the arguments -/

theorem src_at3 : W3 m ρ c (Proc.devRef .tc main_v5) = Cert.Gcn.src (m ((c : Thread nD τ).loc main_arg1)) :=
  Cert.KernelIdeal.Stretch.pre_src (W0 m ρ c)

theorem dst_at3 : W3 m ρ c (Proc.devRef .tc main_v6) = Cert.Gcn.dst (m ((c : Thread nD τ).loc main_arg1)) :=
  Cert.KernelIdeal.Stretch.pre_dst (W0 m ρ c)

theorem norm_at3 : W3 m ρ c (Proc.devRef .tc main_v31) = Cert.Gcn.edgeNorm (m ((c : Thread nD τ).loc main_arg1)) (m ((c : Thread nD τ).loc main_arg2)) :=
  Cert.KernelIdeal.Stretch.pre_norm (W0 m ρ c)

theorem arg0_at3 : W3 m ρ c (Proc.devRef .tc main_arg0) = m ((c : Thread nD τ).loc main_arg0) :=
  Cert.KernelIdeal.Stretch.pre_arg0 (W0 m ρ c)

theorem arg3_at3 : W3 m ρ c (Proc.devRef .tc main_arg3) = m ((c : Thread nD τ).loc main_arg3) :=
  Cert.KernelIdeal.Stretch.pre_arg3 (W0 m ρ c)

theorem arg4_at3 : W3 m ρ c (Proc.devRef .tc main_arg4) = m ((c : Thread nD τ).loc main_arg4) :=
  Cert.KernelIdeal.Stretch.pre_arg4 (W0 m ρ c)

theorem arg5_at3 : W3 m ρ c (Proc.devRef .tc main_arg5) = m ((c : Thread nD τ).loc main_arg5) :=
  Cert.KernelIdeal.Stretch.pre_arg5 (W0 m ρ c)

theorem arg6_at3 : W3 m ρ c (Proc.devRef .tc main_arg6) = m ((c : Thread nD τ).loc main_arg6) :=
  Cert.KernelIdeal.Stretch.pre_arg6 (W0 m ρ c)

/-! ## The first region and the stretch after it -/

/-- The first region leaves x · W1. -/
theorem dense1_at4 : W4 m ρ c (Proc.devRef .tc main_v32) = Cert.KernelIdeal.DenseOne.whole (m ((c : Thread nD τ).loc main_arg0)) (m ((c : Thread nD τ).loc main_arg3)) :=
  ((W4_arr m ρ c 2).trans (Cert.KernelIdeal.DenseOne.value (V3 m ρ) c)).trans
    (congrArg₂ Cert.KernelIdeal.DenseOne.whole (arg0_at3 m ρ c) (arg3_at3 m ρ c))

theorem src_at4 : W4 m ρ c (Proc.devRef .tc main_v5) = Cert.Gcn.src (m ((c : Thread nD τ).loc main_arg1)) := (W4_of_ne m ρ c main_v5 (by decide)).trans (src_at3 m ρ c)
theorem dst_at4 : W4 m ρ c (Proc.devRef .tc main_v6) = Cert.Gcn.dst (m ((c : Thread nD τ).loc main_arg1)) := (W4_of_ne m ρ c main_v6 (by decide)).trans (dst_at3 m ρ c)
theorem norm_at4 : W4 m ρ c (Proc.devRef .tc main_v31) = Cert.Gcn.edgeNorm (m ((c : Thread nD τ).loc main_arg1)) (m ((c : Thread nD τ).loc main_arg2)) := (W4_of_ne m ρ c main_v31 (by decide)).trans (norm_at3 m ρ c)
theorem arg4_at4 : W4 m ρ c (Proc.devRef .tc main_arg4) = m ((c : Thread nD τ).loc main_arg4) := (W4_of_ne m ρ c main_arg4 (by decide)).trans (arg4_at3 m ρ c)
theorem arg5_at4 : W4 m ρ c (Proc.devRef .tc main_arg5) = m ((c : Thread nD τ).loc main_arg5) := (W4_of_ne m ρ c main_arg5 (by decide)).trans (arg5_at3 m ρ c)
theorem arg6_at4 : W4 m ρ c (Proc.devRef .tc main_arg6) = m ((c : Thread nD τ).loc main_arg6) := (W4_of_ne m ρ c main_arg6 (by decide)).trans (arg6_at3 m ρ c)

/-- The stretch after it aggregates x · W1 over the edges. -/
theorem agg1_at5 : W5 m ρ c (Proc.devRef .tc main_v45)
    = Cert.Gcn.aggregateWith128 (W4 m ρ c (Proc.devRef .tc main_v32)) (W4 m ρ c (Proc.devRef .tc main_v5)) (W4 m ρ c (Proc.devRef .tc main_v6)) (W4 m ρ c (Proc.devRef .tc main_v31)) :=
  Cert.KernelIdeal.Stretch.mid_agg (W4 m ρ c)

/-- … and lays b1 as a one-row matrix. -/
theorem row1_at5 : W5 m ρ c (Proc.devRef .tc main_v46) = shapeCast S1x128 (W4 m ρ c (Proc.devRef .tc main_arg4)) shapeCasts_S128_S1x128 :=
  Cert.KernelIdeal.Stretch.mid_row (W4 m ρ c)

theorem keep5_v5 : W5 m ρ c (Proc.devRef .tc main_v5) = W4 m ρ c (Proc.devRef .tc main_v5) :=
  Cert.KernelIdeal.Stretch.mid_keep_v5 (W4 m ρ c)
theorem keep5_v6 : W5 m ρ c (Proc.devRef .tc main_v6) = W4 m ρ c (Proc.devRef .tc main_v6) :=
  Cert.KernelIdeal.Stretch.mid_keep_v6 (W4 m ρ c)
theorem keep5_v31 : W5 m ρ c (Proc.devRef .tc main_v31) = W4 m ρ c (Proc.devRef .tc main_v31) :=
  Cert.KernelIdeal.Stretch.mid_keep_v31 (W4 m ρ c)
theorem keep5_arg5 : W5 m ρ c (Proc.devRef .tc main_arg5) = W4 m ρ c (Proc.devRef .tc main_arg5) :=
  Cert.KernelIdeal.Stretch.mid_keep_arg5 (W4 m ρ c)
theorem keep5_arg6 : W5 m ρ c (Proc.devRef .tc main_arg6) = W4 m ρ c (Proc.devRef .tc main_arg6) :=
  Cert.KernelIdeal.Stretch.mid_keep_arg6 (W4 m ρ c)

/-! ## The second and third regions -/

/-- The second region leaves the bias step of what it finds. -/
theorem hidden_at6 : W6 m ρ c (Proc.devRef .tc main_v47) = Cert.KernelIdeal.BiasOne.whole (W5 m ρ c (Proc.devRef .tc main_v45)) (W5 m ρ c (Proc.devRef .tc main_v46)) :=
  (W6_arr m ρ c 2).trans (Cert.KernelIdeal.BiasOne.value (V5 m ρ) c)

/-- The third region leaves the product of what it finds by W2. -/
theorem dense2_at7 : W7 m ρ c (Proc.devRef .tc main_v48) = Cert.KernelIdeal.DenseTwo.whole (W6 m ρ c (Proc.devRef .tc main_v47)) (W6 m ρ c (Proc.devRef .tc main_arg5)) :=
  (W7_arr m ρ c 2).trans (Cert.KernelIdeal.DenseTwo.value (V6 m ρ) c)

theorem arg5_at6 : W6 m ρ c (Proc.devRef .tc main_arg5) = m ((c : Thread nD τ).loc main_arg5) :=
  (W6_of_ne m ρ c main_arg5 (by decide)).trans ((keep5_arg5 m ρ c).trans (arg5_at4 m ρ c))
theorem src_at7 : W7 m ρ c (Proc.devRef .tc main_v5) = Cert.Gcn.src (m ((c : Thread nD τ).loc main_arg1)) :=
  (W7_of_ne m ρ c main_v5 (by decide)).trans ((W6_of_ne m ρ c main_v5 (by decide)).trans ((keep5_v5 m ρ c).trans (src_at4 m ρ c)))
theorem dst_at7 : W7 m ρ c (Proc.devRef .tc main_v6) = Cert.Gcn.dst (m ((c : Thread nD τ).loc main_arg1)) :=
  (W7_of_ne m ρ c main_v6 (by decide)).trans ((W6_of_ne m ρ c main_v6 (by decide)).trans ((keep5_v6 m ρ c).trans (dst_at4 m ρ c)))
theorem norm_at7 : W7 m ρ c (Proc.devRef .tc main_v31) = Cert.Gcn.edgeNorm (m ((c : Thread nD τ).loc main_arg1)) (m ((c : Thread nD τ).loc main_arg2)) :=
  (W7_of_ne m ρ c main_v31 (by decide)).trans ((W6_of_ne m ρ c main_v31 (by decide)).trans ((keep5_v31 m ρ c).trans (norm_at4 m ρ c)))
theorem arg6_at7 : W7 m ρ c (Proc.devRef .tc main_arg6) = m ((c : Thread nD τ).loc main_arg6) :=
  (W7_of_ne m ρ c main_arg6 (by decide)).trans ((W6_of_ne m ρ c main_arg6 (by decide)).trans ((keep5_arg6 m ρ c).trans (arg6_at4 m ρ c)))

/-! ## The last stretch and the fourth region -/

theorem agg2_at8 : W8 m ρ c (Proc.devRef .tc main_v61)
    = Cert.Gcn.aggregateWith64 (W7 m ρ c (Proc.devRef .tc main_v48)) (W7 m ρ c (Proc.devRef .tc main_v5)) (W7 m ρ c (Proc.devRef .tc main_v6)) (W7 m ρ c (Proc.devRef .tc main_v31)) :=
  Cert.KernelIdeal.Stretch.last_agg (W7 m ρ c)

theorem row2_at8 : W8 m ρ c (Proc.devRef .tc main_v62) = shapeCast S1x64 (W7 m ρ c (Proc.devRef .tc main_arg6)) shapeCasts_S64_S1x64 :=
  Cert.KernelIdeal.Stretch.last_row (W7 m ρ c)

/-- The fourth region leaves the bias step of what it finds. -/
theorem out_at9 : W9 m ρ c (Proc.devRef .tc main_v63) = Cert.KernelIdeal.BiasTwo.whole (W8 m ρ c (Proc.devRef .tc main_v61)) (W8 m ρ c (Proc.devRef .tc main_v62)) :=
  (W9_arr m ρ c 2).trans (Cert.KernelIdeal.BiasTwo.value (V8 m ρ) c)

/-! ## Put together -/

/-- The regions' whole-array operations and the two aggregations, composed in the program's order, are the two-layer graph
    convolution: a bias vector reshaped to a row is the bias vector broadcast to a row. -/
theorem composed (x : FVec Ideal Cert.Gcn.SFeat128 .f32) (ends : IVec Cert.Gcn.SEnds 32) (w : FVec Ideal Cert.Gcn.SEdge .f32)
    (W1 : FVec Ideal ⟨2, ![128, 128]⟩ .f32) (b1 : FVec Ideal ⟨1, ![128]⟩ .f32)
    (W2 : FVec Ideal ⟨2, ![128, 64]⟩ .f32) (b2 : FVec Ideal ⟨1, ![64]⟩ .f32)
    (h1 : (⟨1, ![128]⟩ : Shape).ShapeCasts ⟨2, ![1, 128]⟩) (h2 : (⟨1, ![64]⟩ : Shape).ShapeCasts ⟨2, ![1, 64]⟩) :
    Cert.KernelIdeal.BiasTwo.whole
        (Cert.Gcn.aggregateWith64
          (Cert.KernelIdeal.DenseTwo.whole
            (Cert.KernelIdeal.BiasOne.whole
              (Cert.Gcn.aggregateWith128 (Cert.KernelIdeal.DenseOne.whole x W1) (Cert.Gcn.src ends) (Cert.Gcn.dst ends) (Cert.Gcn.edgeNorm ends w))
              (shapeCast ⟨2, ![1, 128]⟩ b1 h1))
            W2)
          (Cert.Gcn.src ends) (Cert.Gcn.dst ends) (Cert.Gcn.edgeNorm ends w))
        (shapeCast ⟨2, ![1, 64]⟩ b2 h2)
      = Cert.Gcn.output x ends w W1 b1 W2 b2 := by
  rw [Cert.Lib.DenseBias.bias_row_eq b1 h1 (by decide), Cert.Lib.DenseBias.bias_row_eq b2 h2 (by decide)]
  rfl

/-- The result buffer after the run holds the two-layer graph convolution of the argument arrays. -/
theorem result : W9 m ρ c (Proc.devRef .tc main_v63)
    = Cert.Gcn.output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine Eq.trans ?_ (composed _ _ _ _ _ _ _ shapeCasts_S128_S1x128 shapeCasts_S64_S1x64)
  rw [out_at9 m ρ c, agg2_at8 m ρ c, row2_at8 m ρ c, dense2_at7 m ρ c, hidden_at6 m ρ c, agg1_at5 m ρ c, row1_at5 m ρ c,
    dense1_at4 m ρ c, src_at7 m ρ c, dst_at7 m ρ c, norm_at7 m ρ c, arg6_at7 m ρ c, arg5_at6 m ρ c,
    src_at4 m ρ c, dst_at4 m ρ c, norm_at4 m ρ c, arg4_at4 m ρ c]

end Cert.KernelIdeal.Chain

end
-- ==== Proof.RefValue.lean ====
/-
  The reference program's result is the two-layer graph convolution of its arguments.

  The reference applies, on the host and in this order, exactly the operations the graph convolution is spelt with: the
  edges with their self loops, the degrees and their inverse square roots, the per-edge normalisation (computed once per
  layer, from the same arguments, so both copies are the same term), and per layer the matrix product, the gather along
  the source nodes, the product with the normalisation, the segment sum into the target nodes and the bias; the maximum
  with zero sits between the layers.  Its run's composed term is therefore the specification's, by unfolding both.
-/
import proofs.«144157_j74010876444913_1_alg».proof.Proof.Gen.ReferenceIdeal.Run
import proofs.«144157_j74010876444913_1_alg».proof.Proof.GraphConv

noncomputable section

open Idealize.ShloMosaic Idealize.ShloMosaic.TcCoe Idealize.SL.Sem

namespace Cert.ReferenceIdeal.Whole

open Cert.ReferenceIdeal Cert.ReferenceIdeal.Gen

set_option maxRecDepth 16384 in
set_option maxHeartbeats 400000 in
/-- The run's composed result term is the graph convolution of the argument arrays. -/
theorem result (m : (ℓ : Loc nD τ sig) → Buf (Elt Ideal) ℓ) (c : Dev nD) :
    Cert.ReferenceIdeal.Value.res_out0 (F := Ideal) m c
      = Cert.Gcn.output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show Cert.ReferenceIdeal.Value.res_main_v98 (F := Ideal) m c = _
  unfold Cert.ReferenceIdeal.Value.res_main_v98
  rfl

end Cert.ReferenceIdeal.Whole

end
-- ==== Proof.lean ====
/-
  A two-layer graph convolution: the kernel's program against its host reference, on the extended reals.

  Both programs compute, from node features x, an edge list with weights, and two dense layers (W1, b1), (W2, b2),

      out = aggregate (max (aggregate (x · W1) + b1) 0 · W2) + b2,

  where aggregate Y n is the sum over the edges e into node n (self loops included) of Y (src e) · norm e and
  norm e = dinv (src e) · w e · dinv (dst e) with dinv = 1 / sqrt (degree) where the degree is positive (Proof/GraphConv.lean).

  The reference does all of it with host operations, so its run's composed term is that function by unfolding
  (Proof/RefValue.lean).  The kernel's program does the edge bookkeeping, the gathers and the segment sums with the SAME host
  operations, and hands the two matrix products and the two bias steps to four regions, each of which works through its
  array in ten blocks of 10000 rows.  A block of rows of a matrix product is the product of that block of rows, and the bias
  step acts entry by entry, so each region leaves in its output array exactly what the corresponding host operation would
  (Proof/DenseOne.lean, BiasOne.lean, DenseTwo.lean, BiasTwo.lean over the entry forms of Proof/LibDenseBias.lean); the narrowing of
  the products' operands to bf16 changes nothing on the extended reals.  Reading the program boundary by boundary
  (Proof/Stretches.lean, Proof/KernelValue.lean) its result buffer therefore holds the same function of the arguments.

  No law of arithmetic is used beyond the meaning of the operations: the two sides apply the same exact operations to the
  same values in the same order, so the precondition (finite inputs) is not opened.  The three frame claims are the generated
  frame certificates and the reference's generated run; the idealization rewrote nothing, so it is preserved trivially.
-/
import proofs.«144157_j74010876444913_1_alg».proof.Defs
import proofs.«144157_j74010876444913_1_alg».proof.Proof.Gen.Kernel
import proofs.«144157_j74010876444913_1_alg».proof.Proof.Gen.Kernel.Frame
import proofs.«144157_j74010876444913_1_alg».proof.Proof.Gen.KernelIdeal
import proofs.«144157_j74010876444913_1_alg».proof.Proof.Gen.KernelIdeal.Frame
import proofs.«144157_j74010876444913_1_alg».proof.Proof.Gen.ReferenceIdeal
import proofs.«144157_j74010876444913_1_alg».proof.Proof.Gen.Pre_finite_inputs
import proofs.«144157_j74010876444913_1_alg».proof.Proof.Gen.ReferenceIdeal.Run
import proofs.«144157_j74010876444913_1_alg».proof.Proof.KernelRun
import proofs.«144157_j74010876444913_1_alg».proof.Proof.KernelValue
import proofs.«144157_j74010876444913_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no region: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the two-layer graph convolution of the (agreeing) arguments in their result buffers. -/
theorem algebraic : Cert.algebraic_KernelIdeal_ReferenceIdeal := by
  intro m ρ m' ρ' _ hagree
  refine ⟨fun c => Cert.Gcn.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Chain.result m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hagree c
    refine (Cert.ReferenceIdeal.Whole.result m' c).trans ?_
    rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
